-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384x1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S512x512 : Shape := ⟨2, ![512, 512]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩
abbrev S4x2048x16384 : Shape := ⟨3, ![4, 2048, 16384]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S8192x4096, .f32⟩
  | .hbm, ⟨5, _⟩ => ⟨S1x16384, .f32⟩
  | .hbm, ⟨6, _⟩ => ⟨S8192x16384, .f32⟩
  | .hbm, ⟨7, _⟩ => ⟨S4x2048x16384, .f32⟩
  | .local _ .vmem, ⟨0, _⟩ => ⟨S512x512, .f32⟩
  | .local _ .vmem, ⟨1, _⟩ => ⟨S512x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 16, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x16384_S4x2048x16384 : S8192x16384.ShapeCasts S4x2048x16384
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .i32 = 32 ∨ (Rect.block (s := S16384x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x16384.size a
  hwx0_4 : ∀ i : grid0.Coords, EltTy.bits .f32 = 32 ∨ (Rect.block (s := S8192x16384) S512x1024.size (cc0_transform_4 i) (hinb0_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one grid step leaves in the accumulator and in the output tile, as values.

  Each step stores the whole accumulator once, with the sum of what it held and the step's tile product; the first
  step of a round stores zeros first and reads them back, so it leaves zero plus its product; the last step of a
  round also stores the whole output tile, with the accumulator it has just written plus the bias row.  Every load
  reads a whole buffer, so each stored value is the body's arithmetic applied to the buffers' contents.  Stated for
  any float instance.
-/
import proofs.«159744_j44375602103130_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first step of a round: the accumulator ends at the step's arithmetic over the zeros it has just stored. -/
theorem scratch_first (c : Dev nD) (i : grid0.Coords) (arg3 : Memref sig .tc .vmem S512x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x512 .f32) (x1 : Vec F S1024x512 .i32) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 x0 x1 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  try sl_unfold_words
  rw [View.canon_cons_unit_zero (S := S512x1024) hz, View.readCov_unit_zero (S := S512x1024) _ hz]
  simp only [View.readAt_eq_ld, harg3.read_unread, harg4.read_unread, harg5.read_unread, harg6.read_unread, harg8.read_unread, View.ld_unit_zero (S := S512x512) hz, View.ld_unit_zero (S := S1024x512) hz, View.ld_unit_zero (S := S1024x1) hz, View.ld_unit_zero (S := S1x1024) hz, View.ld_unit_zero (S := S512x1024) hz]

/-- A middle step: the accumulator ends at the step's arithmetic over what it held. -/
theorem scratch_middle (c : Dev nD) (i : grid0.Coords) (arg3 : Memref sig .tc .vmem S512x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x512 .f32) (x1 : Vec F S1024x512 .i32) (x2 : Vec F S1024x1 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  try sl_unfold_words
  rw [View.canon_unit_zero (S := S512x1024) hz]
  simp only [View.readAt_eq_ld, harg3.read_unread, harg4.read_unread, harg5.read_unread, harg6.read_unread, harg8.read_unread, View.ld_unit_zero (S := S512x512) hz, View.ld_unit_zero (S := S1024x512) hz, View.ld_unit_zero (S := S1024x1) hz, View.ld_unit_zero (S := S1x1024) hz, View.ld_unit_zero (S := S512x1024) hz]

/-- The last step of a round leaves the accumulator as a middle step does … -/
theorem scratch_last (c : Dev nD) (i : grid0.Coords) (arg3 : Memref sig .tc .vmem S512x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x512 .f32) (x1 : Vec F S1024x512 .i32) (x2 : Vec F S1024x1 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  try sl_unfold_words
  rw [View.canon_unit_zero (S := S512x1024) hz]
  simp only [View.readAt_eq_ld, harg3.read_unread, harg4.read_unread, harg5.read_unread, harg6.read_unread, harg8.read_unread, View.ld_unit_zero (S := S512x512) hz, View.ld_unit_zero (S := S1024x512) hz, View.ld_unit_zero (S := S1024x1) hz, View.ld_unit_zero (S := S1x1024) hz, View.ld_unit_zero (S := S512x1024) hz]

/-- … and the output tile at that accumulator plus the bias row. -/
theorem output_last (c : Dev nD) (i : grid0.Coords) (arg3 : Memref sig .tc .vmem S512x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x512 .f32) (x1 : Vec F S1024x512 .i32) (x2 : Vec F S1024x1 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  try sl_unfold_words
  rw [View.canon_unit_zero (S := S512x1024) hz, View.readCov_unit_zero (S := S512x1024) _ hz]
  simp only [View.readAt_eq_ld, harg3.read_unread, harg4.read_unread, harg5.read_unread, harg6.read_unread, harg8.read_unread, View.ld_unit_zero (S := S512x512) hz, View.ld_unit_zero (S := S1024x512) hz, View.ld_unit_zero (S := S1024x1) hz, View.ld_unit_zero (S := S1x1024) hz, View.ld_unit_zero (S := S512x1024) hz]

end Cert.KernelIdeal.Pieces

end
-- ==== Proof.Payload.lean ====
/-
  The body's arithmetic, read entry by entry on the extended reals.

  One grid point multiplies a 512 x 512 tile of the activations with a 1024 x 512 tile of the weights, the weight
  tile first scaled row by row:  entry (p, q) of the product is  sum over k < 512 of  a(p, k) * (w(q, k) * s(q)),
  where w(q, k) is the integer weight read as a real number and s(q) the scale of weight row q.  The two changes of
  float format on the way into the product are the identity on extended reals.  The body adds this product to what
  the accumulator held; the accumulator is reset to zero entries; and on the last step the bias of column q is
  added to entry (p, q).
-/
import proofs.«159744_j44375602103130_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- Entry (p, q) of one tile product: the activations' row p against the scaled weights' row q. -/
def tileDot (a : Vec Ideal S512x512 .f32) (w : Vec Ideal S1024x512 .i32) (s : Vec Ideal S1024x1 .f32)
    (p : Fin 512) (q : Fin 1024) : EReal :=
  ∑ k : Fin 512, a (ix2 p k) * (FloatOps.sitofp (F := Ideal) .f32 (w (ix2 q k)) * s (ix2 q (0 : Fin 1)))

/-- The left operand of the product is read at (output row, contraction position) … -/
theorem lhs_row (j : S512x1024.Idx) (k : dot_S512x512_S1024x512_S512x1024_1_1_0_0_n_n.contr.Idx) :
    (dot_S512x512_S1024x512_S512x1024_1_1_0_0_n_n.lhsIdx j k 0).val = (j 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_contr (j : S512x1024.Idx) (k : dot_S512x512_S1024x512_S512x1024_1_1_0_0_n_n.contr.Idx) :
    (dot_S512x512_S1024x512_S512x1024_1_1_0_0_n_n.lhsIdx j k 1).val = (k ⟨0, by decide⟩).val :=
  dot_S512x512_S1024x512_S512x1024_1_1_0_0_n_n.lhsIdx_val_of_single rfl j k
/-- … and the right operand at (output column, contraction position): both operands are contracted along their second axis. -/
theorem rhs_row (j : S512x1024.Idx) (k : dot_S512x512_S1024x512_S512x1024_1_1_0_0_n_n.contr.Idx) :
    (dot_S512x512_S1024x512_S512x1024_1_1_0_0_n_n.rhsIdx j k 0).val = (j 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_contr (j : S512x1024.Idx) (k : dot_S512x512_S1024x512_S512x1024_1_1_0_0_n_n.contr.Idx) :
    (dot_S512x512_S1024x512_S512x1024_1_1_0_0_n_n.rhsIdx j k 1).val = (k ⟨0, by decide⟩).val :=
  dot_S512x512_S1024x512_S512x1024_1_1_0_0_n_n.rhsIdx_val_of_single rfl j k

/-- The scale column, spread along the rows of the weight tile, read at (q, k) is the scale of row q. -/
theorem scale_spread (s : Vec Ideal S1024x1 .f32) (q : Fin 1024) (k : Fin 512) :
    broadcastTo S1024x512 s broadcasts_S1024x1_S1024x512 (ix2 q k) = s (ix2 q (0 : Fin 1)) :=
  broadcastTo_apply s broadcasts_S1024x1_S1024x512 (ix2 q k) (ix2 q (0 : Fin 1)) (fun a => match a with
    | ⟨0, _⟩ => by show q.val = if (1024 : Nat) = 1 then 0 else q.val; rw [if_neg (by decide)]
    | ⟨1, _⟩ => by show 0 = if (1 : Nat) = 1 then 0 else k.val; rw [if_pos rfl])

/-- The bias row, spread down the columns of the output tile, read at (p, q) is the bias of column q. -/
theorem bias_spread (b : Vec Ideal S1x1024 .f32) (p : Fin 512) (q : Fin 1024) :
    broadcastTo S512x1024 b broadcasts_S1x1024_S512x1024 (ix2 p q) = b (ix2 (0 : Fin 1) q) :=
  broadcastTo_apply b broadcasts_S1x1024_S512x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The product of the two tiles into a zero accumulator, at entry (p, q). -/
theorem product_apply (a : Vec Ideal S512x512 .f32) (w : Vec Ideal S1024x512 .i32) (s : Vec Ideal S1024x1 .f32)
    (p : Fin 512) (q : Fin 1024) :
    matmul dot_S512x512_S1024x512_S512x1024_1_1_0_0_n_n none
        (truncf .bf16 (shapeCast S512x512 a shapeCasts_S512x512_S512x512) bitsLt_bf16_f32 : FVec Ideal S512x512 .bf16)
        (truncf .bf16 (mulf (sitofp .f32 w) (broadcastTo S1024x512 s broadcasts_S1024x1_S1024x512)) bitsLt_bf16_f32 : FVec Ideal S1024x512 .bf16)
        (constant S512x1024 .f32 0x00000000#32) (ix2 p q)
      = tileDot a w s p q := by
  refine (Ideal.matmul_constant_zero_apply dot_S512x512_S1024x512_S512x1024_1_1_0_0_n_n none _ _ (ix2 p q)).trans ?_
  unfold tileDot
  rw [← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun x => Fin.ext (by
    match x with
    | ⟨0, _⟩ => exact lhs_row _ _
    | ⟨1, _⟩ => exact (lhs_contr _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun x => Fin.ext (by
    match x with
    | ⟨0, _⟩ => exact rhs_row _ _
    | ⟨1, _⟩ => exact (rhs_contr _ _).trans hk)
  rw [el, er]
  show shapeCast S512x512 a shapeCasts_S512x512_S512x512 (ix2 p k)
      * (FloatOps.sitofp (F := Ideal) .f32 (w (ix2 q k)) * broadcastTo S1024x512 s broadcasts_S1024x1_S1024x512 (ix2 q k)) = _
  rw [shapeCast_self, scale_spread]

/-- What a step stores into the accumulator: what it held plus the tile product. -/
theorem step_apply (a : Vec Ideal S512x512 .f32) (w : Vec Ideal S1024x512 .i32) (s : Vec Ideal S1024x1 .f32)
    (acc : Vec Ideal S512x1024 .f32) (p : Fin 512) (q : Fin 1024) :
    k0_pay2 (F := Ideal) a w s acc (ix2 p q) = acc (ix2 p q) + tileDot a w s p q := by
  unfold k0_pay2
  try dsimp only
  refine (congrFun (shapeCast_self _ _) (ix2 p q)).trans ?_
  exact congrArg (acc (ix2 p q) + ·) (product_apply a w s p q)

/-- The reset stores zero entries. -/
theorem reset_apply (p : Fin 512) (q : Fin 1024) : k0_pay1 (F := Ideal) (ix2 p q) = 0 := by
  unfold k0_pay1
  try dsimp only
  refine (congrFun (shapeCast_self _ _) (ix2 p q)).trans ?_
  exact Ideal.ofBits_zero_f32

/-- The last step's output: the accumulator plus the bias of the entry's column. -/
theorem emit_apply (acc : Vec Ideal S512x1024 .f32) (b : Vec Ideal S1x1024 .f32) (p : Fin 512) (q : Fin 1024) :
    k0_pay3 (F := Ideal) acc b (ix2 p q) = acc (ix2 p q) + b (ix2 (0 : Fin 1) q) := by
  unfold k0_pay3
  try dsimp only
  show acc (ix2 p q) + broadcastTo S512x1024 (shapeCast S1x1024 b shapeCasts_S1x1024_S1x1024) broadcasts_S1x1024_S512x1024 (ix2 p q) = _
  rw [shapeCast_self, bias_spread]

end Cert.KernelIdeal.Payload

end
-- ==== Proof.Restart.lean ====
/-
  An accumulation that starts afresh every `d` steps.

  Step `n` adds a term `f n`; at a step whose number is a multiple of `d` the accumulator is first put back to a
  starting value `z`.  After step `d * q + k` with `k < d` it therefore holds `z` plus the terms of the steps
  `d * q, …, d * q + k` of the current round, and nothing of the earlier rounds.  Only associativity of `+` is
  used, so the statement holds in any additive commutative monoid, the extended reals among them.
-/
import Mathlib.Algebra.BigOperators.Fin
import Mathlib.Algebra.BigOperators.Intervals

namespace Cert.Restart

variable {M : Type*} [AddCommMonoid M]

/-- The accumulator after step `n`. -/
def acc (d : ℕ) (z : M) (f : ℕ → M) : ℕ → M
  | 0 => z + f 0
  | n + 1 => if (n + 1) % d = 0 then z + f (n + 1) else acc d z f n + f (n + 1)

/-- At the first step of a round the accumulator is the starting value plus that step's term. -/
theorem acc_first (d : ℕ) (z : M) (f : ℕ → M) (n : ℕ) (h : n % d = 0) : acc d z f n = z + f n := by
  cases n with
  | zero => rfl
  | succ n => exact if_pos h

/-- At any other step it is what the step before left plus this step's term. -/
theorem acc_next (d : ℕ) (z : M) (f : ℕ → M) (n : ℕ) (h : ¬ n % d = 0) :
    acc d z f n = acc d z f (n - 1) + f n := by
  cases n with
  | zero => exact absurd (Nat.zero_mod d) h
  | succ n => exact if_neg h

/-- After step `k` of round `q`: the starting value plus the round's terms so far. -/
theorem acc_round (d : ℕ) (z : M) (f : ℕ → M) (q : ℕ) :
    ∀ k, k < d → acc d z f (d * q + k) = z + ∑ j ∈ Finset.range (k + 1), f (d * q + j)
  | 0, _ => by
    rw [acc_first d z f _ (by rw [Nat.add_zero]; exact Nat.mul_mod_right d q), Finset.sum_range_one]
  | k + 1, hk => by
    have hne : ¬ (d * q + (k + 1)) % d = 0 := by
      rw [Nat.mul_add_mod, Nat.mod_eq_of_lt hk]; exact Nat.succ_ne_zero k
    rw [acc_next d z f _ hne, show d * q + (k + 1) - 1 = d * q + k from rfl,
      acc_round d z f q k (Nat.lt_of_succ_lt hk), Finset.sum_range_succ _ (k + 1), add_assoc]

/-- After the last step of a round: the starting value plus all `d` terms of the round. -/
theorem acc_last (d : ℕ) (z : M) (f : ℕ → M) (q : ℕ) (hd : 0 < d) :
    acc d z f (d * q + (d - 1)) = z + ∑ j : Fin d, f (d * q + j.val) := by
  rw [acc_round d z f q (d - 1) (Nat.sub_lt hd Nat.one_pos), Nat.sub_add_cancel hd, Finset.sum_range]

end Cert.Restart
-- ==== Proof.Running.lean ====
/-
  The accumulator over the grid is a sum that starts afresh every eight steps.

  The grid is walked with the contraction axis innermost: eight consecutive steps share one output tile and run
  through the eight 512-wide slices of the contraction axis.  Step n adds its tile product to the accumulator; the
  first step of each round of eight first puts it back to zero.  So after step n the accumulator entry (p, q) is
  the restarting accumulation (Restart.acc) of the steps' tile products, by induction on n; and the last step of a
  round writes to the output tile that entry plus the bias of column q.
-/
import proofs.«159744_j44375602103130_1_alg».proof.Proof.Pieces
import proofs.«159744_j44375602103130_1_alg».proof.Proof.Payload
import proofs.«159744_j44375602103130_1_alg».proof.Proof.Restart

set_option maxRecDepth 16384

noncomputable section

open Idealize.ShloMosaic Idealize.ShloMosaic.TcCoe Idealize.ShloMosaic.ValueIdx Idealize.SL.Sem

namespace Cert.KernelIdeal.Running

open Cert.KernelIdeal Cert.KernelIdeal.Gen Cert.KernelIdeal.Payload

variable (m : (ℓ : Loc nD τ sig) → Buf (Elt Ideal) ℓ)

/-- The tile product of a step's three input tiles, at entry (p, q). -/
def stepDot (c : Dev nD) (p : Fin 512) (q : Fin 1024) (n : ℕ) (h : n < cfg0.N) : EReal :=
  tileDot (iblk m c 0 ⟨n, h⟩) (iblk m c 1 ⟨n, h⟩) (iblk m c 2 ⟨n, h⟩) p q

/-- The same as a function of any step number: what step `n` adds at entry (p, q) (nothing past the grid's end). -/
def contrib (c : Dev nD) (p : Fin 512) (q : Fin 1024) (n : ℕ) : EReal :=
  if h : n < cfg0.N then stepDot m c p q n h else 0

theorem contrib_at (c : Dev nD) (p : Fin 512) (q : Fin 1024) (t : Fin cfg0.N) :
    contrib m c p q t.val = tileDot (iblk m c 0 t) (iblk m c 1 t) (iblk m c 2 t) p q := dif_pos t.isLt

/-- A round's first step leaves zero plus its tile product. -/
theorem first_step (c : Dev nD) (t : Fin cfg0.N) (h0 : t.val % 8 = 0) (p : Fin 512) (q : Fin 1024) :
    (outsAt0 m c t.val t.isLt).2 (ix2 p q) = 0 + contrib m c p q t.val := by
  have h1 : ¬ t.val % 8 = 7 := by omega
  rw [contrib_at, outsAt0_A m c t h0 h1]
  dsimp only
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (step_apply (iblk m c 0 t) (iblk m c 1 t) (iblk m c 2 t) (k0_pay1 (F := Ideal)) p q).trans ?_
  exact congrArg (· + tileDot (iblk m c 0 t) (iblk m c 1 t) (iblk m c 2 t) p q) (reset_apply p q)

/-- Every other step leaves what the step before left plus its tile product. -/
theorem later_step (c : Dev nD) (t : Fin cfg0.N) (h0 : ¬ t.val % 8 = 0) (p : Fin 512) (q : Fin 1024) :
    (outsAt0 m c t.val t.isLt).2 (ix2 p q) = (outsAt0 m c (t.val - 1) (Nat.lt_of_le_of_lt (Nat.sub_le _ _) t.isLt)).2 (ix2 p q) + contrib m c p q t.val := by
  rw [contrib_at]
  by_cases h1 : t.val % 8 = 7
  · rw [outsAt0_C m c t h0 h1]
    dsimp only
    refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    exact step_apply (iblk m c 0 t) (iblk m c 1 t) (iblk m c 2 t) (outsAt0 m c (t.val - 1) (Nat.lt_of_le_of_lt (Nat.sub_le _ _) t.isLt)).2 p q
  · rw [outsAt0_B m c t h0 h1]
    dsimp only
    refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    exact step_apply (iblk m c 0 t) (iblk m c 1 t) (iblk m c 2 t) (outsAt0 m c (t.val - 1) (Nat.lt_of_le_of_lt (Nat.sub_le _ _) t.isLt)).2 p q

/-- A round's last step writes to the output tile the accumulator it leaves plus the bias of the entry's column. -/
theorem last_out (c : Dev nD) (t : Fin cfg0.N) (h1 : t.val % 8 = 7) (p : Fin 512) (q : Fin 1024) :
    (outsAt0 m c t.val t.isLt).1 (ix2 p q)
      = (outsAt0 m c t.val t.isLt).2 (ix2 p q) + iblk m c 3 t (ix2 (0 : Fin 1) q) := by
  have h0 : ¬ t.val % 8 = 0 := by omega
  rw [outsAt0_C m c t h0 h1]
  dsimp only
  refine (congrFun (Pieces.output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  refine (emit_apply (k0_pay2 (iblk m c 0 t) (iblk m c 1 t) (iblk m c 2 t) (outsAt0 m c (t.val - 1) (Nat.lt_of_le_of_lt (Nat.sub_le _ _) t.isLt)).2) (iblk m c 3 t) p q).trans ?_
  refine congrArg (· + iblk m c 3 t (ix2 (0 : Fin 1) q)) ?_
  exact (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).symm

/-- After step `n` the accumulator entry (p, q) is the accumulation, restarted every eight steps from zero, of the
    steps' tile products: by induction on the step. -/
theorem scratch_eq (c : Dev nD) (p : Fin 512) (q : Fin 1024) :
    ∀ (n : ℕ) (h : n < cfg0.N), (outsAt0 m c n h).2 (ix2 p q) = Restart.acc 8 0 (contrib m c p q) n := by
  intro n
  induction n with
  | zero =>
    intro h
    exact (first_step m c ⟨0, h⟩ rfl p q).trans (Restart.acc_first 8 0 _ 0 rfl).symm
  | succ k ih =>
    intro h
    by_cases h0 : (k + 1) % 8 = 0
    · exact (first_step m c ⟨k + 1, h⟩ h0 p q).trans (Restart.acc_first 8 0 _ (k + 1) h0).symm
    · refine (later_step m c ⟨k + 1, h⟩ h0 p q).trans ?_
      rw [Restart.acc_next 8 0 _ (k + 1) h0]
      exact congrArg (· + contrib m c p q (k + 1)) (ih (Nat.lt_of_succ_lt h))

/-- So the tile a round's last step writes out holds, at (p, q), zero plus the round's eight tile products plus
    the bias of column q. -/
theorem out_tile (c : Dev nD) (t : Fin cfg0.N) (h1 : t.val % 8 = 7) (p : Fin 512) (q : Fin 1024) :
    (outsAt0 m c t.val t.isLt).1 (ix2 p q)
      = (0 + ∑ j : Fin 8, contrib m c p q (8 * (t.val / 8) + j.val)) + iblk m c 3 t (ix2 (0 : Fin 1) q) := by
  rw [last_out m c t h1 p q, scratch_eq m c p q t.val t.isLt]
  have e : t.val = 8 * (t.val / 8) + (8 - 1) := by omega
  rw [← Restart.acc_last 8 0 (contrib m c p q) (t.val / 8) (by decide), ← e]

end Cert.KernelIdeal.Running

end
-- ==== Proof.Tiles.lean ====
/-
  Where each grid step's tiles sit in their arrays.

  Grid step t = ((i * 16 + j) * 8 + k) works on rows 512 i … 512 i + 511 of the flattened activations, on weight
  rows (and output columns) 1024 j … 1024 j + 1023, and on the contraction positions 512 k … 512 k + 511; so
  i = t / 128, j = t / 8 mod 16, k = t mod 8.  Each input tile read at an entry is its array read at the entry's
  place, and the 16 x 16 output tiles written back at the rounds' last steps cover the result array.
-/
import proofs.«159744_j44375602103130_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Tiles

open Cert.KernelIdeal Cert.KernelIdeal.Gen

variable (m : (ℓ : Loc nD τ sig) → Buf (Elt Ideal) ℓ)

/-- Which tile of its array each window holds at step t: the step's three grid coordinates are t / 128, t / 8 mod 16
    and t mod 8.  Decided over the 2048 steps. -/
theorem idx_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = t.val / 8 % 16 ∧ win0_2.index t (1 : Fin 2) = 0
    ∧ win0_3.index t (0 : Fin 2) = 0 ∧ win0_3.index t (1 : Fin 2) = t.val / 8 % 16
    ∧ win0_4.index t (0 : Fin 2) = t.val / 128 ∧ win0_4.index t (1 : Fin 2) = t.val / 8 % 16 :=
  (by decide +kernel : ∀ t : Fin grid0.N, _)

/-- The activations' tile at step t, entry (p, k), is the flattened activations at row 512 (t / 128) + p, position 512 (t mod 8) + k. -/
theorem tile0_apply (c : Dev nD) (t : Fin cfg0.N) (p : Fin 512) (k : Fin 512) (r : Fin 8192) (i : Fin 4096)
    (hr : r.val = 512 * (t.val / 128) + p.val) (hi : i.val = 512 * (t.val % 8) + k.val) :
    iblk m c 0 t (ix2 p k) = V m c main_v0 (ix2 r i) := by
  obtain ⟨e00, e01, e10, e11, e20, e21, e30, e31, e40, e41⟩ := idx_facts t
  unfold iblk
  rw [View.read_apply]
  show V m c main_v0 (((cfg0.win 0).blk t).view.emb (ix2 p k)) = V m c main_v0 (ix2 r i)
  refine congrArg (V m c main_v0) (funext fun a => Fin.ext ?_)
  match a with
  | ⟨0, _⟩ => show win0_0.index t (0 : Fin 2) * 512 + 1 * p.val = r.val; rw [e00]; omega
  | ⟨1, _⟩ => show win0_0.index t (1 : Fin 2) * 512 + 1 * k.val = i.val; rw [e01]; omega

/-- The weights' tile at step t, entry (q, k), is the weights at row 1024 (t / 8 mod 16) + q, position 512 (t mod 8) + k. -/
theorem tile1_apply (c : Dev nD) (t : Fin cfg0.N) (q : Fin 1024) (k : Fin 512) (o : Fin 16384) (i : Fin 4096)
    (hr : o.val = 1024 * (t.val / 8 % 16) + q.val) (hi : i.val = 512 * (t.val % 8) + k.val) :
    iblk m c 1 t (ix2 q k) = V m c main_arg1 (ix2 o i) := by
  obtain ⟨e00, e01, e10, e11, e20, e21, e30, e31, e40, e41⟩ := idx_facts t
  unfold iblk
  rw [View.read_apply]
  show V m c main_arg1 (((cfg0.win 1).blk t).view.emb (ix2 q k)) = V m c main_arg1 (ix2 o i)
  refine congrArg (V m c main_arg1) (funext fun a => Fin.ext ?_)
  match a with
  | ⟨0, _⟩ => show win0_1.index t (0 : Fin 2) * 1024 + 1 * q.val = o.val; rw [e10]; omega
  | ⟨1, _⟩ => show win0_1.index t (1 : Fin 2) * 512 + 1 * k.val = i.val; rw [e11]; omega

/-- The scales' tile at step t, entry q, is the scale of weight row 1024 (t / 8 mod 16) + q. -/
theorem tile2_apply (c : Dev nD) (t : Fin cfg0.N) (q : Fin 1024) (z : Fin 1) (o : Fin 16384) (z' : Fin 1)
    (hr : o.val = 1024 * (t.val / 8 % 16) + q.val) (hi : z'.val = z.val) :
    iblk m c 2 t (ix2 q z) = V m c main_arg2 (ix2 o z') := by
  obtain ⟨e00, e01, e10, e11, e20, e21, e30, e31, e40, e41⟩ := idx_facts t
  unfold iblk
  rw [View.read_apply]
  show V m c main_arg2 (((cfg0.win 2).blk t).view.emb (ix2 q z)) = V m c main_arg2 (ix2 o z')
  refine congrArg (V m c main_arg2) (funext fun a => Fin.ext ?_)
  match a with
  | ⟨0, _⟩ => show win0_2.index t (0 : Fin 2) * 1024 + 1 * q.val = o.val; rw [e20]; omega
  | ⟨1, _⟩ => show win0_2.index t (1 : Fin 2) * 1 + 1 * z.val = z'.val; rw [e21]; omega

/-- The bias tile at step t, entry q, is the bias of output column 1024 (t / 8 mod 16) + q. -/
theorem tile3_apply (c : Dev nD) (t : Fin cfg0.N) (z : Fin 1) (q : Fin 1024) (z' : Fin 1) (o : Fin 16384)
    (hr : z'.val = z.val) (hi : o.val = 1024 * (t.val / 8 % 16) + q.val) :
    iblk m c 3 t (ix2 z q) = V m c main_v1 (ix2 z' o) := by
  obtain ⟨e00, e01, e10, e11, e20, e21, e30, e31, e40, e41⟩ := idx_facts t
  unfold iblk
  rw [View.read_apply]
  show V m c main_v1 (((cfg0.win 3).blk t).view.emb (ix2 z q)) = V m c main_v1 (ix2 z' o)
  refine congrArg (V m c main_v1) (funext fun a => Fin.ext ?_)
  match a with
  | ⟨0, _⟩ => show win0_3.index t (0 : Fin 2) * 1 + 1 * z.val = z'.val; rw [e30]; omega
  | ⟨1, _⟩ => show win0_3.index t (1 : Fin 2) * 1024 + 1 * q.val = o.val; rw [e31]; omega

/-- An index of the result array lies in step t's tile iff each coordinate lies in the tile's range. -/
theorem mem_tile (t : Fin cfg0.N) (i : S8192x16384.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2).slice (win0_4.rect t)).set ↔ _
  rw [View.set_slice_whole, Rect.mem_set_unit]
  exact Iff.rfl

/-- Every index of the result array lies in the tile some round's last step writes back: row r and column o in
    that of round (r / 512, o / 1024). -/
theorem covered (i : S8192x16384.Idx) :
    ∃ t : Fin cfg0.N, (cfg0.win 4).flush t = true ∧ i ∈ ((cfg0.win 4).blk t).view.set := by
  have h0 : (i 0).val < 8192 := (i 0).isLt
  have h1 : (i 1).val < 16384 := (i 1).isLt
  have hN : cfg0.N = 2048 := N_0
  have hlt : ((i 0).val / 512 * 16 + (i 1).val / 1024) * 8 + 7 < cfg0.N := by rw [hN]; omega
  refine ⟨⟨((i 0).val / 512 * 16 + (i 1).val / 1024) * 8 + 7, hlt⟩, (flush0_4 _).mpr (by show (((i 0).val / 512 * 16 + (i 1).val / 1024) * 8 + 7) % 8 = 7; omega), ?_⟩
  obtain ⟨e00, e01, e10, e11, e20, e21, e30, e31, e40, e41⟩ := idx_facts ⟨((i 0).val / 512 * 16 + (i 1).val / 1024) * 8 + 7, hlt⟩
  rw [mem_tile]
  intro a
  match a with
  | ⟨0, _⟩ =>
    show win0_4.index ⟨((i 0).val / 512 * 16 + (i 1).val / 1024) * 8 + 7, hlt⟩ (0 : Fin 2) * 512 ≤ (i 0).val
      ∧ (i 0).val < win0_4.index ⟨((i 0).val / 512 * 16 + (i 1).val / 1024) * 8 + 7, hlt⟩ (0 : Fin 2) * 512 + 512
    rw [e40]
    show (((i 0).val / 512 * 16 + (i 1).val / 1024) * 8 + 7) / 128 * 512 ≤ (i 0).val
      ∧ (i 0).val < (((i 0).val / 512 * 16 + (i 1).val / 1024) * 8 + 7) / 128 * 512 + 512
    omega
  | ⟨1, _⟩ =>
    show win0_4.index ⟨((i 0).val / 512 * 16 + (i 1).val / 1024) * 8 + 7, hlt⟩ (1 : Fin 2) * 1024 ≤ (i 1).val
      ∧ (i 1).val < win0_4.index ⟨((i 0).val / 512 * 16 + (i 1).val / 1024) * 8 + 7, hlt⟩ (1 : Fin 2) * 1024 + 1024
    rw [e41]
    show (((i 0).val / 512 * 16 + (i 1).val / 1024) * 8 + 7) / 8 % 16 * 1024 ≤ (i 1).val
      ∧ (i 1).val < (((i 0).val / 512 * 16 + (i 1).val / 1024) * 8 + 7) / 8 % 16 * 1024 + 1024
    omega

end Cert.KernelIdeal.Tiles

end
-- ==== Proof.Whole.lean ====
/-
  The result array of the call as one function of the arrays it finds.

  The tile written back at the last step of round (i, j) is the restriction to rows 512 i … and columns 1024 j … of
  ONE function:  entry (r, o) is  0 + the sum over the eight slices of the contraction axis of the slice's 512
  products  a(r, ·) * (w(o, ·) * s(o)),  plus the bias of column o.  The written-back tiles cover the result
  array, so it ends holding that function.
-/
import proofs.«159744_j44375602103130_1_alg».proof.Proof.Running
import proofs.«159744_j44375602103130_1_alg».proof.Proof.Tiles
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Payload Cert.KernelIdeal.Running Cert.KernelIdeal.Tiles

variable (m : (ℓ : Loc nD τ sig) → Buf (Elt Ideal) ℓ)

/-- Position k of slice j of the contraction axis. -/
def slot (j : Fin 8) (k : Fin 512) : Fin 4096 := ⟨k.val + 512 * j.val, by omega⟩

/-- Entry (r, o) of the result: zero plus the eight slices' partial products, plus the bias of column o. -/
def entry (X : S8192x4096.Idx → EReal) (W : S16384x4096.Idx → BitVec 32) (S : S16384x1.Idx → EReal)
    (B : S1x16384.Idx → EReal) (r : Fin 8192) (o : Fin 16384) : EReal :=
  (0 + ∑ j : Fin 8, ∑ k : Fin 512,
      X (ix2 r (slot j k)) * (FloatOps.sitofp (F := Ideal) .f32 (W (ix2 o (slot j k))) * S (ix2 o (0 : Fin 1))))
    + B (ix2 (0 : Fin 1) o)

/-- The result array as one function of the arrays the call finds. -/
def whole (c : Dev nD) : S8192x16384.Idx → EReal :=
  fun y => entry (V m c main_v0) (V m c main_arg1) (V m c main_arg2) (V m c main_v1) (y 0) (y 1)

/-- The tile a round's last step writes out is that function on the round's rows and columns. -/
theorem out_entry (c : Dev nD) (t : Fin cfg0.N) (h7 : t.val % 8 = 7) (p : Fin 512) (q : Fin 1024)
    (r : Fin 8192) (o : Fin 16384) (hr : r.val = 512 * (t.val / 128) + p.val)
    (ho : o.val = 1024 * (t.val / 8 % 16) + q.val) :
    (outsAt0 m c t.val t.isLt).1 (ix2 p q)
      = entry (V m c main_v0) (V m c main_arg1) (V m c main_arg2) (V m c main_v1) r o := by
  have hN : cfg0.N = 2048 := N_0
  have ht : t.val < 2048 := lt_of_lt_of_eq t.isLt hN
  rw [out_tile m c t h7 p q]
  unfold entry
  refine congrArg₂ (· + ·) (congrArg (0 + ·) (Finset.sum_congr rfl fun j _ => ?_))
    (tile3_apply m c t (0 : Fin 1) q (0 : Fin 1) o rfl ho)
  have hj : j.val < 8 := j.isLt
  have hlt : 8 * (t.val / 8) + j.val < cfg0.N := lt_of_lt_of_eq (by omega : 8 * (t.val / 8) + j.val < 2048) hN.symm
  refine (contrib_at m c p q ⟨8 * (t.val / 8) + j.val, hlt⟩).trans ?_
  unfold tileDot
  refine Finset.sum_congr rfl fun k _ => ?_
  have hk : k.val < 512 := k.isLt
  rw [tile0_apply m c ⟨8 * (t.val / 8) + j.val, hlt⟩ p k r (slot j k)
      (by show r.val = 512 * ((8 * (t.val / 8) + j.val) / 128) + p.val; omega)
      (by show k.val + 512 * j.val = 512 * ((8 * (t.val / 8) + j.val) % 8) + k.val; omega),
    tile1_apply m c ⟨8 * (t.val / 8) + j.val, hlt⟩ q k o (slot j k)
      (by show o.val = 1024 * ((8 * (t.val / 8) + j.val) / 8 % 16) + q.val; omega)
      (by show k.val + 512 * j.val = 512 * ((8 * (t.val / 8) + j.val) % 8) + k.val; omega),
    tile2_apply m c ⟨8 * (t.val / 8) + j.val, hlt⟩ q (0 : Fin 1) o (0 : Fin 1)
      (by show o.val = 1024 * ((8 * (t.val / 8) + j.val) / 8 % 16) + q.val; omega) rfl]

/-- What a flushing step writes back is its tile of `whole`. -/
theorem flushed_eq (c : Dev nD) (t : Fin cfg0.N) (hf : (cfg0.win 4).flush t = true) :
    (dats m 0 c).flushed 4 t = ((cfg0.win 4).blk t).view.read (Elt Ideal) (whole m c) := by
  have h7 : t.val % 8 = 7 := (flush0_4 t).mp hf
  have hN : cfg0.N = 2048 := N_0
  have ht : t.val < 2048 := lt_of_lt_of_eq t.isLt hN
  obtain ⟨e00, e01, e10, e11, e20, e21, e30, e31, e40, e41⟩ := idx_facts t
  show (cfg0.win 4).cut (grid0.coords t) ((dats m 0 c).after 4 t) = _
  rw [after0_4]
  funext y
  rw [View.read_apply]
  show (outsAt0 m c t.val t.isLt).1 y = whole m c (((cfg0.win 4).blk t).view.emb y)
  have hp : (y 0).val < 512 := (y 0).isLt
  have hq : (y 1).val < 1024 := (y 1).isLt
  have hemb : ((cfg0.win 4).blk t).view.emb y
      = ix2 (⟨512 * (t.val / 128) + (y 0).val, by omega⟩ : Fin 8192) (⟨1024 * (t.val / 8 % 16) + (y 1).val, by omega⟩ : Fin 16384) :=
    funext fun a => Fin.ext (by
      match a with
      | ⟨0, _⟩ => show win0_4.index t (0 : Fin 2) * 512 + 1 * (y 0).val = 512 * (t.val / 128) + (y 0).val; rw [e40]; omega
      | ⟨1, _⟩ => show win0_4.index t (1 : Fin 2) * 1024 + 1 * (y 1).val = 1024 * (t.val / 8 % 16) + (y 1).val; rw [e41]; omega)
  rw [hemb]
  refine (congrArg (outsAt0 m c t.val t.isLt).1 (eq_ix2 y)).trans ?_
  exact out_entry m c t h7 ⟨(y 0).val, hp⟩ ⟨(y 1).val, hq⟩ _ _ rfl rfl

/-- So the result array of the call ends holding `whole`. -/
theorem final_out (c : Dev nD) : (dats m 0 c).arrAt 4 cfg0.N = whole m c :=
  (dats m 0 c).arrAt_eq_of_cover 4 (whole m c) (flushed_eq m c) covered

end Cert.KernelIdeal.Whole

end
-- ==== Proof.Result.lean ====
/-
  The kernel program's result, through the reshapes around the call.

  Before the call the activations [4, 2048, 4096] are flattened to [8192, 4096] (row 2048 b + s is sentence b,
  position s) and the bias [16384] is read as one row [1, 16384]; after it the [8192, 16384] result is split back
  into [4, 2048, 16384].  A reshape moves no value: entry (b, s, o) of the program's result is entry
  (2048 b + s, o) of the call's result array.
-/
import proofs.«159744_j44375602103130_1_alg».proof.Proof.Whole
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The flattened activations the call finds are the argument with its first two axes merged. -/
theorem flat_eq (c : Dev nD) :
    (V m c main_v0 : S8192x4096.Idx → EReal)
      = shapeCast S8192x4096 (m ((c.tc : Thread nD τ).loc main_arg0)) shapeCasts_S4x2048x4096_S8192x4096 := by
  show StableHlo.after hostOps0 (fun b => m (c, b)) (Proc.devRef .tc main_v0) = _
  after_results
  rfl

/-- The bias row the call finds is the bias argument read as one row. -/
theorem bias_row_eq (c : Dev nD) :
    (V m c main_v1 : S1x16384.Idx → EReal)
      = shapeCast S1x16384 (m ((c.tc : Thread nD τ).loc main_arg3)) shapeCasts_S16384_S1x16384 := by
  show StableHlo.after hostOps0 (fun b => m (c, b)) (Proc.devRef .tc main_v1) = _
  after_results
  rfl

/-- Row 2048 b + s of the flattened activations is sentence b, position s. -/
theorem flat_apply (c : Dev nD) (b : Fin 4) (s : Fin 2048) (i : Fin 4096) (r : Fin 8192)
    (hr : r.val = 2048 * b.val + s.val) :
    V m c main_v0 (ix2 r i) = m ((c.tc : Thread nD τ).loc main_arg0) (ix3 b s i) := by
  rw [flat_eq]
  refine shapeCast_apply _ _ (ix2 r i) (ix3 b s i) ?_
  refine (Shape.rowMajor_val_three (d := ![4, 2048, 4096]) (ix3 b s i)).trans
    (Eq.trans ?_ (Shape.rowMajor_val_two (d := ![8192, 4096]) (ix2 r i)).symm)
  show (b.val * 2048 + s.val) * 4096 + i.val = r.val * 4096 + i.val
  omega

/-- Entry o of the bias row is entry o of the bias. -/
theorem bias_apply (c : Dev nD) (o : Fin 16384) :
    V m c main_v1 (ix2 (0 : Fin 1) o) = m ((c.tc : Thread nD τ).loc main_arg3) (ix1 o) := by
  rw [bias_row_eq]
  refine shapeCast_apply _ _ (ix2 (0 : Fin 1) o) (ix1 o) ?_
  refine (Shape.rowMajor_val_one (d := ![16384]) (ix1 o)).trans
    (Eq.trans ?_ (Shape.rowMajor_val_two (d := ![1, 16384]) (ix2 (0 : Fin 1) o)).symm)
  show o.val = 0 * 16384 + o.val
  omega

/-- The program's result: the call's result array split back into sentences and positions. -/
def result (c : Dev nD) : S4x2048x16384.Idx → EReal :=
  shapeCast S4x2048x16384 (Whole.whole m c) shapeCasts_S8192x16384_S4x2048x16384

/-- Its entry (b, s, o) is the call's entry (2048 b + s, o). -/
theorem result_apply (c : Dev nD) (b : Fin 4) (s : Fin 2048) (o : Fin 16384) (r : Fin 8192)
    (hr : r.val = 2048 * b.val + s.val) :
    result m c (ix3 b s o) = Whole.whole m c (ix2 r o) := by
  unfold result
  refine shapeCast_apply _ _ (ix3 b s o) (ix2 r o) ?_
  refine (Shape.rowMajor_val_two (d := ![8192, 16384]) (ix2 r o)).trans
    (Eq.trans ?_ (Shape.rowMajor_val_three (d := ![4, 2048, 16384]) (ix3 b s o)).symm)
  show r.val * 16384 + o.val = (b.val * 2048 + s.val) * 16384 + o.val
  omega

/-- What the reshape after the call leaves in the program's result buffer. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  unfold result
  refine congrArg (fun v => shapeCast S4x2048x16384 v shapeCasts_S8192x16384_S4x2048x16384) ?_
  exact (Pipeline.withArrays_arr spec0 launch0.win.arr_inj c _ _ 4).trans (Whole.final_out m c)

/-- The program's run: it terminates with its result buffer at `result` and its arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.Bridge.lean ====
/-
  The kernel program and the reference compute one function of the arguments.

  The reference is  out(b, s, o) = (sum over all 4096 positions i of  x(b, s, i) * (w(o, i) * scale(o)))  + bias(o).
  The kernel program's entry (b, s, o) is  0 + the sum over the eight 512-wide slices of the contraction axis of
  the slice's products, plus bias(o), over the same factors: the flattening of x puts sentence b, position s in row
  2048 b + s.  A sum over 4096 = 8 * 512 consecutive positions is the sum over the slices of the sums inside them,
  and  0 + y = y;  both hold for all extended reals, so no entry needs to be finite.
-/
import proofs.«159744_j44375602103130_1_alg».proof.Proof.Result
import proofs.«159744_j44375602103130_1_alg».proof.Proof.LibBlockSum
import proofs.«159744_j44375602103130_1_alg».proof.Proof.Gen.ReferenceIdeal.Read

set_option maxRecDepth 16384

noncomputable section

open Idealize.ShloMosaic Idealize.ShloMosaic.TcCoe Idealize.ShloMosaic.ValueIdx Idealize.SL.Sem

namespace Cert.KernelIdeal.Bridge

open Cert.KernelIdeal Cert.KernelIdeal.Gen

variable (m : (ℓ : Loc nD τ sig) → Buf (Elt Ideal) ℓ)

/-- A sum over the 4096 contraction positions, slice by slice. -/
theorem sum_slices (f : Fin 4096 → EReal) :
    ∑ k : Fin 4096, f k = ∑ j : Fin 8, ∑ k : Fin 512, f (Whole.slot j k) :=
  (Cert.BlockSum.sum_merged (n := 8) (d := 512) f).trans
    (Finset.sum_congr rfl fun j _ => Finset.sum_congr rfl fun k _ => congrArg f (Fin.ext rfl))

/-- The operand indices of the reference's contraction at output (b, s, o) and position i, by coordinates. -/
theorem lhs_idx (b : Fin 4) (s : Fin 2048) (o : Fin 16384) (i : Fin 4096) :
    Cert.ReferenceIdeal.Read.lidx_main_v3 (ix3 b s o) i = ix3 b s i :=
  funext fun a => Fin.ext (by match a with | ⟨0, _⟩ => rfl | ⟨1, _⟩ => rfl | ⟨2, _⟩ => rfl)
theorem rhs_idx (b : Fin 4) (s : Fin 2048) (o : Fin 16384) (i : Fin 4096) :
    Cert.ReferenceIdeal.Read.ridx_main_v3 (ix3 b s o) i = ix2 o i :=
  funext fun a => Fin.ext (by match a with | ⟨0, _⟩ => rfl | ⟨1, _⟩ => rfl)
/-- The scale the reference spreads along weight row o is entry (o, 0) of the scale column. -/
theorem scale_idx (o : Fin 16384) (i : Fin 4096) : Cert.ReferenceIdeal.Read.idx_main_v1 (ix2 o i) = ix2 o (0 : Fin 1) :=
  funext fun a => Fin.ext (by match a with | ⟨0, _⟩ => rfl | ⟨1, _⟩ => rfl)
/-- The bias the reference spreads over sentences and positions is entry o of the bias. -/
theorem bias_idx (b : Fin 4) (s : Fin 2048) (o : Fin 16384) :
    Cert.ReferenceIdeal.Read.idx_main_v4 (Cert.ReferenceIdeal.Read.idx_main_v5 (ix3 b s o)) = ix1 o :=
  funext fun a => Fin.ext (by match a with | ⟨0, _⟩ => rfl)

/-- The kernel program's result is the reference's last stage of the same four arguments. -/
theorem result_eq (c : Dev nD) :
    Result.result m c = Cert.ReferenceIdeal.Read.val_main_v6 (F := Ideal) (m ((c.tc : Thread nD τ).loc main_arg0)) (m ((c.tc : Thread nD τ).loc main_arg1))
      (m ((c.tc : Thread nD τ).loc main_arg2)) (m ((c.tc : Thread nD τ).loc main_arg3)) := by
  funext i
  obtain ⟨b, s, o, rfl⟩ : ∃ (b : Fin 4) (s : Fin 2048) (o : Fin 16384), i = ix3 b s o := ⟨i 0, i 1, i 2, eq_ix3 i⟩
  have hb : b.val < 4 := b.isLt
  have hs : s.val < 2048 := s.isLt
  rw [Result.result_apply m c b s o ⟨2048 * b.val + s.val, by omega⟩ rfl]
  show Whole.entry (V m c main_v0) (V m c main_arg1) (V m c main_arg2) (V m c main_v1) ⟨2048 * b.val + s.val, by omega⟩ o = _
  unfold Whole.entry
  rw [Cert.ReferenceIdeal.Read.val_main_v6_apply, Cert.ReferenceIdeal.Read.val_main_v3_apply, Cert.ReferenceIdeal.Read.val_main_v5_apply, Cert.ReferenceIdeal.Read.val_main_v4_apply]
  rw [zero_add, bias_idx, Result.bias_apply]
  refine congrArg (· + m ((c.tc : Thread nD τ).loc main_arg3) (ix1 o)) ?_
  refine Eq.trans ?_ (sum_slices _).symm
  refine Finset.sum_congr rfl fun j _ => Finset.sum_congr rfl fun k _ => ?_
  rw [Cert.ReferenceIdeal.Read.val_main_v2_apply, Cert.ReferenceIdeal.Read.val_main_v0_apply, Cert.ReferenceIdeal.Read.val_main_v1_apply, lhs_idx, rhs_idx, scale_idx,
    Result.flat_apply m c b s (Whole.slot j k) ⟨2048 * b.val + s.val, by omega⟩ rfl, V_main_arg1, V_main_arg2]
  rfl

end Cert.KernelIdeal.Bridge

end
-- ==== Proof.lean ====
/-
  A quantized linear layer: both programs compute  out(b, s, o) = sum over i of x(b, s, i) * (w(o, i) * scale(o)) + bias(o),
  with w the integer weights read as real numbers.

  The kernel flattens x to [8192, 4096], walks a 16 x 16 x 8 grid of (row tile, column tile, contraction slice) with
  the contraction slice innermost, keeps a 512 x 1024 accumulator that is zeroed at slice 0, adds one tile product
  per step, and at slice 7 writes the accumulator plus the bias row to the output tile; the result is reshaped back to
  [4, 2048, 16384].  The reference multiplies the whole arrays at once.  On the extended reals the two changes of
  float format inside the kernel are the identity, a sum over 4096 positions is the sum of its eight slices' sums,
  and adding onto zero changes nothing; so the two results agree entry by entry for ALL inputs, and the
  precondition (finite inputs) is never used.  No operation of the kernel had to be rewritten for the reading on the extended reals: that reading is the
  kernel's own text, so the statement relating the two readings is empty.

  The modules: Payload (the body's arithmetic at an entry), Pieces (what a step leaves in its buffers), Restart and
  Running (the accumulator over the grid), Tiles and Whole (from output tiles to the whole array), Result (the
  reshapes around the call), Bridge (the two sides are one function).
-/
import proofs.«159744_j44375602103130_1_alg».proof.Defs
import proofs.«159744_j44375602103130_1_alg».proof.Proof.Gen.Kernel
import proofs.«159744_j44375602103130_1_alg».proof.Proof.Gen.Kernel.Frame
import proofs.«159744_j44375602103130_1_alg».proof.Proof.Gen.KernelIdeal
import proofs.«159744_j44375602103130_1_alg».proof.Proof.Gen.KernelIdeal.Frame
import proofs.«159744_j44375602103130_1_alg».proof.Proof.Gen.ReferenceIdeal
import proofs.«159744_j44375602103130_1_alg».proof.Proof.Gen.ReferenceIdeal.Run
import proofs.«159744_j44375602103130_1_alg».proof.Proof.Gen.ReferenceIdeal.Read
import proofs.«159744_j44375602103130_1_alg».proof.Proof.Gen.Pre_finite_inputs
import proofs.«159744_j44375602103130_1_alg».proof.Proof.Bridge
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference is a straight line of host operations: it runs, and writes only its own intermediates. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel: nothing to show. -/
theorem preserves : Cert.preserves_Kernel_KernelIdeal := trivial

/-- From memories that agree on the four arguments both programs end with the same result: the kernel program's
    result array is the reference's last stage of the same arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
